-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S16x128 : Shape := ⟨2, ![16, 128]⟩
abbrev S8192x128 : Shape := ⟨2, ![8192, 128]⟩
abbrev S8x128 : Shape := ⟨2, ![8, 128]⟩
abbrev S1024x8x128 : Shape := ⟨3, ![1024, 8, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1024x8x128 : S8192x128.ShapeCasts S1024x8x128
  reduces_S1024x8x128_S8x128 : S1024x8x128.Reduces [0] S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Regroup.lean ====
/-
  The one piece of arithmetic between the two programs.

  A flat array of 33554432 = 2 · 16 · 1024 · 8 · 128 entries is read by the kernel as a 262144 × 128 matrix, cut into 32 row
  blocks of 8192 rows; the first 16 blocks go to one half of the 16 × 128 partial-sum array and the last 16 to the other,
  and inside a block the 8192 rows are folded onto 8 rows (row `8 q + a` of the block lands on row `a`). So entry
  `(r, l)` of the partial-sum array, with `r = 8 h + a`, collects exactly the flat positions
      `((16 h + s) · 8192 + 8 q + a) · 128 + l`,    s < 16,  q < 1024,
  and as `(r, l, s, q)` ranges over 16 × 128 × 16 × 1024 these positions run through every number below 33554432 once:
  it is the mixed-radix expansion of the position with digits (h, s, q, a, l), read in another order. Hence summing any
  function over the flat positions is summing it over `(r, l, s, q)` — in a commutative monoid, with no side condition.
-/
import Idealize.ShloMosaic.Lib.ValueIdx

namespace Cert.MeanOfProducts

open Finset

/-- The flat position collected by partial-sum row `r` (= 8 · half + sublane), lane `l`, at step `s` of the half's 16 row
    blocks and sublane group `q` of the block's 1024. -/
def pos (r l s q : ℕ) : ℕ := ((16 * (r / 8) + s) * 8192 + q * 8 + r % 8) * 128 + l

theorem pos_lt {r l s q : ℕ} (hr : r < 16) (hl : l < 128) (hs : s < 16) (hq : q < 1024) : pos r l s q < 33554432 := by
  unfold pos; omega

/-- Every flat position is `pos r l s q` for exactly one `(r, l, s, q)` in 16 × 128 × 16 × 1024: a sum over the positions
    is the fourfold sum. -/
theorem sum_regroup {M : Type*} [AddCommMonoid M] (f : ℕ → M) :
    ∑ p ∈ range 33554432, f p
      = ∑ r ∈ range 16, ∑ l ∈ range 128, ∑ s ∈ range 16, ∑ q ∈ range 1024, f (pos r l s q) := by
  have key : ∑ p ∈ range 33554432, f p
      = ∑ x ∈ (range 16 ×ˢ range 128) ×ˢ (range 16 ×ˢ range 1024), f (pos x.1.1 x.1.2 x.2.1 x.2.2) := by
    refine Finset.sum_nbij'
      (fun p => ((p / 16777216 * 8 + p / 128 % 8, p % 128), (p / 1048576 % 16, p / 1024 % 1024)))
      (fun x => pos x.1.1 x.1.2 x.2.1 x.2.2) ?_ ?_ ?_ ?_ ?_
    · intro p hp
      rw [mem_range] at hp
      simp only [mem_product, mem_range]
      omega
    · rintro ⟨⟨r, l⟩, ⟨s, q⟩⟩ hx
      simp only [mem_product, mem_range] at hx
      rw [mem_range]
      exact pos_lt hx.1.1 hx.1.2 hx.2.1 hx.2.2
    · intro p hp
      rw [mem_range] at hp
      simp only [pos]
      omega
    · rintro ⟨⟨r, l⟩, ⟨s, q⟩⟩ hx
      simp only [mem_product, mem_range] at hx
      obtain ⟨⟨hr, hl⟩, hs, hq⟩ := hx
      simp only [pos, Prod.mk.injEq]
      refine ⟨⟨?_, ?_⟩, ?_, ?_⟩ <;> omega
    · intro p hp
      rw [mem_range] at hp
      refine congrArg f ?_
      simp only [pos]
      omega
  rw [key]
  simp only [Finset.sum_product]

end Cert.MeanOfProducts
-- ==== Proof.Spec.lean ====
/-
  What both programs compute, stated once over literal shapes and no program: the mean of the products `x i * y i` over a
  flat array of 33554432 entries.

  * `prodAt x y p` is the product at flat position `p` (zero past the end, so that it is a function of every natural).
  * `blockSum x y n a b` is what row block `n` (8192 rows of 128) contributes to entry `(a, b)` of an 8 × 128 tile when its rows
    are folded eight at a time: the sum over the 1024 row groups `q` of the product at row `8192 n + 8 q + a`, lane `b`.
  * `partials x y` is the 16 × 128 array of partial sums: row `r = 8 h + a` adds up the sixteen row blocks `16 h … 16 h + 15`.
  * `sum_partials`: the partial sums add up to the sum of all the products — the re-grouping of Regroup.lean, nothing else.
    Only commutativity and associativity of `+` on the extended reals are used, so no entry need be finite.
  * The scale: the kernel multiplies the total by the word `0x33000000`, which is exactly `2⁻²⁵ = 1 / 33554432`; the reference
    divides it by the word `0x4C000000`, which is exactly `2²⁵ = 33554432`. On every extended real, dividing by a non-zero real
    is multiplying by its reciprocal (`scale_eq`).
-/
import Idealize.ShloMosaic.Lib.ValueIdx
import Idealize.ShloMosaic.PureOps.Ideal.Laws
import proofs.«105900_j87522843559533_2_alg».proof.Proof.Regroup

noncomputable section

namespace Cert.MeanOfProducts

open Idealize.ShloMosaic Idealize.ShloMosaic.ValueIdx Finset

/-- The flat argument shape and the shape of the array of partial sums. -/
abbrev Flat : Shape := ⟨1, ![33554432]⟩
abbrev Partial : Shape := ⟨2, ![16, 128]⟩

/-- The product at flat position `p`; zero past the array. -/
def prodAt (x y : Flat.Idx → EReal) (p : ℕ) : EReal :=
  if h : p < 33554432 then x (ix1 ⟨p, h⟩) * y (ix1 ⟨p, h⟩) else 0

theorem prodAt_of_lt (x y : Flat.Idx → EReal) {p : ℕ} (h : p < 33554432) :
    prodAt x y p = x (ix1 ⟨p, h⟩) * y (ix1 ⟨p, h⟩) := dif_pos h

/-- Row block `n`'s contribution to entry `(a, b)` of the folded 8 × 128 tile. -/
def blockSum (x y : Flat.Idx → EReal) (n a b : ℕ) : EReal :=
  ∑ q ∈ range 1024, prodAt x y ((n * 8192 + q * 8 + a) * 128 + b)

/-- The array of partial sums. -/
def partials (x y : Flat.Idx → EReal) : Partial.Idx → EReal := fun j =>
  ∑ s ∈ range 16, blockSum x y (16 * ((j 0).val / 8) + s) ((j 0).val % 8) (j 1).val

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- The partial sums add up to the sum of all the products. -/
theorem sum_partials (x y : Flat.Idx → EReal) : ∑ j : Partial.Idx, partials x y j = ∑ i : Flat.Idx, x i * y i := by
  have hflat : ∑ i : Flat.Idx, x i * y i = ∑ p ∈ range 33554432, prodAt x y p := by
    rw [← Equiv.sum_comp (idxEquiv1 (n := 33554432)).symm (fun i => x i * y i), Finset.sum_range]
    exact Finset.sum_congr rfl fun a _ => (prodAt_of_lt x y a.isLt).symm
  rw [hflat, sum_regroup, sum_idx2,
    ← Fin.sum_univ_eq_sum_range (fun r => ∑ l ∈ range 128, ∑ s ∈ range 16, ∑ q ∈ range 1024, prodAt x y (pos r l s q)) 16]
  refine Finset.sum_congr rfl fun a _ => ?_
  rw [← Fin.sum_univ_eq_sum_range (fun l => ∑ s ∈ range 16, ∑ q ∈ range 1024, prodAt x y (pos a.val l s q)) 128]
  rfl

/-! ## The two scale words -/

theorem ofBits_two_pow_25 : Ideal.ofBits .f32 0x4C000000#32 = ((33554432 : ℝ) : EReal) := by
  simp [Ideal.ofBits, Ideal.ieee, -EReal.coe_mul]; norm_num

theorem ofBits_two_pow_neg_25 : Ideal.ofBits .f32 0x33000000#32 = ((1 / 33554432 : ℝ) : EReal) := by
  simp [Ideal.ofBits, Ideal.ieee, -EReal.coe_mul]; norm_num

/-- Multiplying by the kernel's word is dividing by the reference's, on every extended real. -/
theorem scale_eq (T : EReal) :
    T * Ideal.ofBits .f32 0x33000000#32 = Ideal.div T (Ideal.ofBits .f32 0x4C000000#32) := by
  rw [ofBits_two_pow_25, ofBits_two_pow_neg_25, Ideal.div_coe (by norm_num : (33554432 : ℝ) ≠ 0)]

end Cert.MeanOfProducts

end
-- ==== Proof.RefValue.lean ====
/-
  The reference's result over the extended reals: the products of the two flat arrays, entry by entry, summed from zero over
  the whole array, the total divided by the word `0x4C000000` (= 33554432).
-/
import proofs.«105900_j87522843559533_2_alg».proof.Defs
import proofs.«105900_j87522843559533_2_alg».proof.Proof.Gen.ReferenceIdeal.Run
import proofs.«105900_j87522843559533_2_alg».proof.Proof.Gen.ReferenceIdeal.Read
import proofs.«105900_j87522843559533_2_alg».proof.Proof.Spec

noncomputable section

namespace Cert.ReferenceIdeal.RefValue

open Cert.ReferenceIdeal Cert.ReferenceIdeal.Gen Idealize.ShloMosaic Idealize.ShloMosaic.ValueIdx Cert.MeanOfProducts

/-- The reference's scalar, at its one index: the total of the products, over 33554432. -/
theorem result_apply (x y : S33554432.Idx → Ideal .f32) (i : S_.Idx) :
    Read.val_main_v2 (F := Ideal) x y i
      = Ideal.div (∑ j : Flat.Idx, x j * y j) (Ideal.ofBits .f32 0x4C000000#32) := by
  rw [Read.val_main_v2_apply, Read.val_main_v1_apply, Read.val_main_cst_apply, Read.val_main_cst_0_apply]
  simp only [Read.val_main_v0_apply]
  show Ideal.div (Ideal.ofBits .f32 0x00000000#32 + ∑ j : Flat.Idx, x j * y j) (Ideal.ofBits .f32 0x4C000000#32) = _
  rw [Ideal.ofBits_zero_f32, zero_add]

end Cert.ReferenceIdeal.RefValue

end
-- ==== Proof.Pieces.lean ====
/-
  What one run of the body leaves in the output tile, in each of its two cases.

  At the first step of a run of sixteen (the inner grid coordinate is 0) the body first stores the zero tile and then proceeds as
  at any other step: it stores the arithmetic of Payload.lean applied to the two input blocks and to what the output tile holds
  — the zero tile just stored at a first step, what the step before left at a later one. Each case ends with ONE store that
  covers the tile, so the tile's final contents are that store's value.
-/
import proofs.«105900_j87522843559533_2_alg».proof.Proof.Gen.KernelIdeal.Frame
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.ShloMosaic.Tactic Idealize.SL.Sem

variable {F : FTy → Type} [FloatOps F]

theorem zeroOffsets : (![0, 0] : Fin 2 → Nat) = fun _ => 0 := funext fun a => by fin_cases a <;> rfl

/-- A later step: the tile holding `old` ends holding the body's arithmetic of the two blocks and `old`. -/
theorem laterStep (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (hc : ¬cond0_0 i) (x y : Vec F S8192x128 .f32) (old : Vec F S8x128 .f32) :
    out0_B_2 c i a2 h2 a3 h3 a4 h4 hc x y old = k0_pay2 x y old := by
  unfold out0_B_2
  rw [View.read_writes_eq_canon _ _ _ (cover0_B_2 c i a2 h2 a3 h3 a4 h4 hc x y old)]
  unfold kernelRun0_B
  dsimp only
  rw [View.canon_unit_zero zeroOffsets]
  simp only [View.readAt_eq_ld, h2.read_unread, h3.read_unread, h4.read_unread,
    View.ld_unit_zero (S := S8192x128) zeroOffsets, View.ld_unit_zero (S := S8x128) zeroOffsets]

/-- A first step: whatever the tile held, it ends holding the body's arithmetic of the two blocks and the zero tile. -/
theorem firstStep (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (hc : cond0_0 i) (x y : Vec F S8192x128 .f32) :
    out0_A_2 c i a2 h2 a3 h3 a4 h4 hc x y = k0_pay2 x y k0_pay1 := by
  unfold out0_A_2
  rw [View.read_writes_eq_canon _ _ _ (cover0_A_2 c i a2 h2 a3 h3 a4 h4 hc x y)]
  unfold kernelRun0_A
  dsimp only
  sl_unfold_words
  rw [View.canon_cons_unit_zero (S := S8x128) zeroOffsets, View.readCov_unit_zero (S := S8x128) _ zeroOffsets]
  simp only [View.readAt_eq_ld, h2.read_unread, h3.read_unread, View.ld_unit_zero (S := S8192x128) zeroOffsets]

end Cert.KernelIdeal.Hand

end
-- ==== Proof.Payload.lean ====
/-
  The body's arithmetic at one entry, over the extended reals.

  The body multiplies its two 8192 × 128 input blocks entry by entry, regards the product as 1024 tiles of 8 × 128 (row
  `8 q + a` of the block is row `a` of tile `q`: the two layouts have the same row-major order), adds the 1024 tiles, and
  adds the result to what the output tile held. So entry `(a, b)` of what it stores is the old entry plus the sum over `q`
  of the products at row `8 q + a`, lane `b`. At the first step of a run the old tile is the zero tile it has just stored.
-/
import proofs.«105900_j87522843559533_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- Row `8 q + a` of a block. -/
abbrev foldedRow (q : Fin 1024) (a : Fin 8) : Fin 8192 := ⟨q.val * 8 + a.val, by have := q.isLt; have := a.isLt; omega⟩

/-- The zero tile the first step of a run stores: every entry is the real number 0. -/
theorem zeroTile_apply (i : S8x128.Idx) : k0_pay1 (F := Ideal) i = 0 := by
  unfold k0_pay1
  exact Ideal.ofBits_zero_f32

/-- Adding the 1024 tiles: entry `(a, b)` of the sum is the sum over `q` of entry `(q, a, b)`. -/
theorem tileSum_apply (v : FVec Ideal S1024x8x128 .f32) (h : S1024x8x128.Reduces [0] S8x128) (a : Fin 8) (b : Fin 128) :
    multiReduction .add [0] S8x128 v 0x00000000#32 h (.inl rfl) rfl (ix2 a b) = ∑ q : Fin 1024, v (ix3 q a b) := by
  refine (Ideal.multiReduction_add_single v 0x00000000#32 h (.inl rfl) rfl (ix2 a b)).trans ?_
  refine Finset.sum_congr rfl fun q _ => congrArg v ?_
  funext d
  match d with
  | ⟨0, _⟩ => rfl
  | ⟨1, _⟩ => rfl
  | ⟨2, _⟩ => rfl

/-- Entry `(q, a, b)` of the block regarded as 1024 tiles is entry `(8 q + a, b)` of the block. -/
theorem asTiles_apply (v : S8192x128.Idx → EReal) (h : S8192x128.ShapeCasts S1024x8x128) (q : Fin 1024) (a : Fin 8) (b : Fin 128) :
    shapeCast S1024x8x128 v h (ix3 q a b) = v (ix2 (foldedRow q a) b) := by
  refine shapeCast_apply v h (ix3 q a b) (ix2 (foldedRow q a) b) ?_
  rw [Shape.rowMajor_val_two, Shape.rowMajor_val_three]
  show (q.val * 8 + a.val) * 128 + b.val = (q.val * 8 + a.val) * 128 + b.val
  rfl

/-- What the body stores, at entry `(a, b)`: the old entry plus the products of rows `8 q + a`, lane `b`, summed over `q`. -/
theorem stored_apply (x y : Vec Ideal S8192x128 .f32) (old : Vec Ideal S8x128 .f32) (a : Fin 8) (b : Fin 128) :
    k0_pay2 (F := Ideal) x y old (ix2 a b)
      = old (ix2 a b) + ∑ q : Fin 1024, x (ix2 (foldedRow q a) b) * y (ix2 (foldedRow q a) b) := by
  unfold k0_pay2
  show shapeCast S8x128 old _ (ix2 a b)
    + multiReduction (F := Ideal) .add [0] S8x128 (_ : FVec Ideal S1024x8x128 .f32) 0x00000000#32 _ (.inl rfl) rfl (ix2 a b) = _
  refine congrArg₂ (· + ·) (congrFun (shapeCast_self old _) _) ?_
  refine (tileSum_apply _ _ a b).trans (Finset.sum_congr rfl fun q _ => ?_)
  refine (asTiles_apply _ _ q a b).trans ?_
  show shapeCast S8192x128 x _ (ix2 (foldedRow q a) b) * shapeCast S8192x128 y _ (ix2 (foldedRow q a) b) = _
  rw [shapeCast_self, shapeCast_self]

end Cert.KernelIdeal.Hand

end
-- ==== Proof.Blocks.lean ====
/-
  The input blocks, read back to the flat arguments.

  Before the region the host regards each flat argument as a 262144 × 128 matrix (entry `(R, l)` is flat position `128 R + l`:
  the same row-major order). At grid point `t` (the two grid coordinates are `t / 16` and `t % 16`, and both input windows
  take row block `16 (t / 16) + t % 16 = t`) the windows hold rows `8192 t … 8192 t + 8191`. So entry `(r, l)` of the block at
  point `t` is the flat argument at position `(8192 t + r) · 128 + l`; and the output window takes row block `t / 16` of the
  16 × 128 array of partial sums.
-/
import proofs.«105900_j87522843559533_2_alg».proof.Proof.Gen.KernelIdeal.Frame
import proofs.«105900_j87522843559533_2_alg».proof.Proof.Spec
import proofs.«105900_j87522843559533_2_alg».proof.Proof.Payload
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.ShloMosaic.Tactic
open Idealize.SL.Sem Idealize.ShloMosaic.ValueIdx Cert.MeanOfProducts Finset

/-- The printed index maps, decided once over the 32 grid points: both input windows take row block `t`, the output window
    row block `t / 16`; all three take lane block 0. -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 16 ∧ win0_2.index t (1 : Fin 2) = 0 :=
  (by decide +kernel : ∀ t : Fin grid0.N, _)

section
variable {F : FTy → Type} [FloatOps F]
variable (m : (ℓ : Loc nD τ sig) → Buf (Elt F) ℓ)

/-- The region finds the first matrix as the host's reshape of the first flat argument, -/
theorem matrix0_eq (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- and the second as that of the second. -/
theorem matrix1_eq (c : Dev nD) :
    (V m c main_v1 : S262144x128.Idx → Elt F .f32)
      = shapeCast S262144x128 (m ((c : Thread nD τ).loc main_arg1)) shapeCasts_S33554432_S262144x128 := by
  show StableHlo.after hostOps0 (fun b => m (c, b)) (Proc.devRef .tc main_v1) = _
  after_results
  rfl

/-- Entry `(R, l)` of the reshaped matrix is the flat array at `128 R + l`. -/
theorem reshape_apply (x : S33554432.Idx → Elt F .f32) (h : S33554432.ShapeCasts S262144x128) (R : Fin 262144) (l : Fin 128)
    (p : Fin 33554432) (hp : p.val = R.val * 128 + l.val) :
    shapeCast S262144x128 x h (ix2 R l) = x (ix1 p) := by
  refine shapeCast_apply x h (ix2 R l) (ix1 p) ?_
  rw [Shape.rowMajor_val_one, Shape.rowMajor_val_two]
  exact hp

/-- Entry `(r, l)` of the first input block at point `t` is the first flat argument at `(8192 t + r) · 128 + l`. -/
theorem block0_apply (c : Dev nD) (t : Fin cfg0.N) (r : Fin 8192) (l : Fin 128) (p : Fin 33554432)
    (hp : p.val = (t.val * 8192 + r.val) * 128 + l.val) :
    (iblk m c 0 t : Vec F S8192x128 .f32) (ix2 r l) = m ((c : Thread nD τ).loc main_arg0) (ix1 p) := by
  have hN : t.val < 32 := lt_of_lt_of_eq t.isLt (show cfg0.N = 32 from N_0)
  obtain ⟨e0, e1, -, -, -, -⟩ := blockIndices t
  unfold iblk
  rw [View.read_apply]
  show V m c main_v0 (((cfg0.win 0).blk t).view.emb (ix2 r l)) = _
  rw [matrix0_eq]
  have hr := r.isLt
  have hl := l.isLt
  have hemb : ((cfg0.win 0).blk t).view.emb (ix2 r l) = ix2 (⟨t.val * 8192 + r.val, by omega⟩ : Fin 262144) l := by
    funext a; apply Fin.ext
    match a with
    | ⟨0, _⟩ => show win0_0.index t (0 : Fin 2) * 8192 + 1 * r.val = t.val * 8192 + r.val; omega
    | ⟨1, _⟩ => show win0_0.index t (1 : Fin 2) * 128 + 1 * l.val = l.val; omega
  rw [hemb]
  exact reshape_apply _ _ _ l p hp

/-- The same for the second input block and the second flat argument. -/
theorem block1_apply (c : Dev nD) (t : Fin cfg0.N) (r : Fin 8192) (l : Fin 128) (p : Fin 33554432)
    (hp : p.val = (t.val * 8192 + r.val) * 128 + l.val) :
    (iblk m c 1 t : Vec F S8192x128 .f32) (ix2 r l) = m ((c : Thread nD τ).loc main_arg1) (ix1 p) := by
  have hN : t.val < 32 := lt_of_lt_of_eq t.isLt (show cfg0.N = 32 from N_0)
  obtain ⟨-, -, e0, e1, -, -⟩ := blockIndices t
  unfold iblk
  rw [View.read_apply]
  show V m c main_v1 (((cfg0.win 1).blk t).view.emb (ix2 r l)) = _
  rw [matrix1_eq]
  have hr := r.isLt
  have hl := l.isLt
  have hemb : ((cfg0.win 1).blk t).view.emb (ix2 r l) = ix2 (⟨t.val * 8192 + r.val, by omega⟩ : Fin 262144) l := by
    funext a; apply Fin.ext
    match a with
    | ⟨0, _⟩ => show win0_1.index t (0 : Fin 2) * 8192 + 1 * r.val = t.val * 8192 + r.val; omega
    | ⟨1, _⟩ => show win0_1.index t (1 : Fin 2) * 128 + 1 * l.val = l.val; omega
  rw [hemb]
  exact reshape_apply _ _ _ l p hp

end

/-- What two blocks that are rows `8192 n …` of the two matrices add to entry `(a, b)` of the output tile, over the extended
    reals: row block `n`'s folded sum. Stated of any two blocks with that reading, so that it is used at a point's blocks by
    naming them. -/
theorem blockSum_of_blocks (X Y : Flat.Idx → EReal) (n : ℕ) (hn : n < 32) (x0 x1 : Vec Ideal S8192x128 .f32)
    (h0 : ∀ (r : Fin 8192) (l : Fin 128) (p : Fin 33554432), p.val = (n * 8192 + r.val) * 128 + l.val → x0 (ix2 r l) = X (ix1 p))
    (h1 : ∀ (r : Fin 8192) (l : Fin 128) (p : Fin 33554432), p.val = (n * 8192 + r.val) * 128 + l.val → x1 (ix2 r l) = Y (ix1 p))
    (a : Fin 8) (b : Fin 128) :
    ∑ q : Fin 1024, x0 (ix2 (foldedRow q a) b) * x1 (ix2 (foldedRow q a) b) = blockSum X Y n a.val b.val := by
  unfold blockSum
  rw [← Fin.sum_univ_eq_sum_range (fun q => prodAt X Y ((n * 8192 + q * 8 + a.val) * 128 + b.val)) 1024]
  refine Finset.sum_congr rfl fun q _ => ?_
  have hq := q.isLt
  have ha := a.isLt
  have hb := b.isLt
  have hlt : (n * 8192 + q.val * 8 + a.val) * 128 + b.val < 33554432 := by omega
  rw [prodAt_of_lt _ _ hlt,
    h0 (foldedRow q a) b ⟨_, hlt⟩ (by show (n * 8192 + q.val * 8 + a.val) * 128 + b.val = (n * 8192 + (q.val * 8 + a.val)) * 128 + b.val; omega),
    h1 (foldedRow q a) b ⟨_, hlt⟩ (by show (n * 8192 + q.val * 8 + a.val) * 128 + b.val = (n * 8192 + (q.val * 8 + a.val)) * 128 + b.val; omega)]

end Cert.KernelIdeal.Hand

end
-- ==== Proof.Accum.lean ====
/-
  What the output tile holds after each grid point, over the extended reals.

  The 32 grid points fall into two runs of sixteen. At the first point of a run the tile is reset: it ends holding
  `0 +` that point's folded block sum. At every later point of the run the body adds the point's folded block sum to what the
  point before left. So after point `t` the tile holds, entry by entry, the sum of the folded block sums of the points
  `16 (t / 16), …, t` of its run — and at the last point of a run (the one that writes the tile back) of all sixteen.
  The induction along a run is the library's (`Pipeline.eq_accAt_of_mod`, `Pipeline.accAt_add_apply`); supplied here are the
  reset and the step, each read at an entry.
-/
import proofs.«105900_j87522843559533_2_alg».proof.Proof.Pieces
import proofs.«105900_j87522843559533_2_alg».proof.Proof.Blocks

noncomputable section

namespace Cert.KernelIdeal.Hand

open Cert.KernelIdeal Cert.KernelIdeal.Gen Idealize.ShloMosaic Idealize.ShloMosaic.TcCoe
open Idealize.SL.Sem Idealize.ShloMosaic.ValueIdx Cert.MeanOfProducts Finset

variable (m : (ℓ : Loc nD τ sig) → Buf (Elt Ideal) ℓ) (c : Dev nD)

/-- The tile after a first step at point `n`, -/
def resetAt (n : ℕ) (h : n < cfg0.N) : S8x128.Idx → EReal :=
  k0_pay2 (F := Ideal) (iblk m c 0 ⟨n, h⟩) (iblk m c 1 ⟨n, h⟩) (k0_pay1 (F := Ideal))

/-- and after a later step at point `n` that found it holding `acc`. -/
def stepAt (n : ℕ) (h : n < cfg0.N) (acc : S8x128.Idx → EReal) : S8x128.Idx → EReal :=
  k0_pay2 (F := Ideal) (iblk m c 0 ⟨n, h⟩) (iblk m c 1 ⟨n, h⟩) acc

/-- Row block `n`'s folded sum at a tile entry. -/
def addend (n : ℕ) (i : S8x128.Idx) : EReal :=
  blockSum (m ((c : Thread nD τ).loc main_arg0)) (m ((c : Thread nD τ).loc main_arg1)) n (i 0).val (i 1).val

theorem stepAt_apply (n : ℕ) (h : n < cfg0.N) (acc : S8x128.Idx → EReal) (i : S8x128.Idx) :
    stepAt m c n h acc i = acc i + addend m c n i := by
  obtain ⟨a, b, rfl⟩ : ∃ (a : Fin 8) (b : Fin 128), i = ix2 a b := ⟨i 0, i 1, eq_ix2 i⟩
  have hn : n < 32 := lt_of_lt_of_eq h (show cfg0.N = 32 from N_0)
  unfold stepAt
  refine (stored_apply (iblk m c 0 ⟨n, h⟩) (iblk m c 1 ⟨n, h⟩) acc a b).trans (congrArg (acc (ix2 a b) + ·) ?_)
  exact blockSum_of_blocks _ _ n hn (iblk m c 0 ⟨n, h⟩) (iblk m c 1 ⟨n, h⟩)
    (fun r l p hp => block0_apply m c ⟨n, h⟩ r l p hp) (fun r l p hp => block1_apply m c ⟨n, h⟩ r l p hp) a b

theorem resetAt_apply (n : ℕ) (h : n < cfg0.N) (i : S8x128.Idx) :
    resetAt m c n h i = 0 + addend m c n i := by
  have e : resetAt m c n h = stepAt m c n h (k0_pay1 (F := Ideal)) := rfl
  rw [e, stepAt_apply, zeroTile_apply]

/-- After point `t` the tile holds the folded block sums of its run's points up to `t`, added up. -/
theorem tile_after (t : Fin cfg0.N) (i : S8x128.Idx) :
    outsAt0 m c t.val t.isLt i = ∑ s ∈ range (t.val % 16 + 1), addend m c (16 * (t.val / 16) + s) i := by
  have h' : 16 * (t.val / 16) + t.val % 16 < cfg0.N := by rw [Nat.div_add_mod]; exact t.isLt
  have h0 : ∀ (n : ℕ) (h : n < cfg0.N), n % 16 = 0 → outsAt0 m c n h = resetAt m c n h := fun n h hn =>
    (outsAt0_A m c ⟨n, h⟩ hn).trans
      (firstStep c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        ((hcond0_0 ⟨n, h⟩).mpr hn) (iblk m c 0 ⟨n, h⟩) (iblk m c 1 ⟨n, h⟩))
  have hs : ∀ (n : ℕ) (h : n + 1 < cfg0.N), ¬(n + 1) % 16 = 0 →
      outsAt0 m c (n + 1) h = stepAt m c (n + 1) h (outsAt0 m c n (Nat.lt_of_succ_lt h)) := fun n h hn =>
    (outsAt0_B m c ⟨n + 1, h⟩ hn).trans
      (laterStep c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hn ((hcond0_0 ⟨n + 1, h⟩).mp hh))
        (iblk m c 0 ⟨n + 1, h⟩) (iblk m c 1 ⟨n + 1, h⟩) (outsAt0 m c n (Nat.lt_of_succ_lt h)))
  have hfold := Pipeline.eq_accAt_of_mod (fun n h => outsAt0 m c n h) 16 (resetAt m c) (stepAt m c) h0 hs (by norm_num)
    t.val t.isLt h'
  have hsum := Pipeline.accAt_add_apply (ι := S8x128.Idx) (β := EReal) (resetAt m c) (stepAt m c) (fun _ => 0) (addend m c)
    (16 * (t.val / 16)) 15 (fun h i => resetAt_apply m c _ h i) (fun n h acc i _ _ => stepAt_apply m c n h acc i)
    (t.val % 16) (by omega) h' i
  rw [show outsAt0 m c t.val t.isLt = _ from hfold, hsum, zero_add]

end Cert.KernelIdeal.Hand

end
-- ==== Proof.Final.lean ====
/-
  From the tile to the scalar.

  The output window writes its tile back at the last point of each run of sixteen (points 15 and 31), into row block `t / 16` of
  the 16 × 128 array: rows 0–7 from the first run, rows 8–15 from the second. By Accum.lean the tile then holds, at entry
  `(a, b)`, the sixteen folded block sums of its run — which is entry `(8 (t / 16) + a, b)` of `partials` (Spec.lean). The two
  blocks cover the array, so after the region the array IS `partials` of the two flat arguments. After the region the host sums
  the array from zero and multiplies the total by the word `0x33000000`; with `sum_partials` the total is the sum of all the
  products, and the kernel's scalar is that sum times `2⁻²⁵`.
-/
import proofs.«105900_j87522843559533_2_alg».proof.Proof.Accum
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.ShloMosaic.Tactic
open Idealize.SL.Sem Idealize.ShloMosaic.ValueIdx Cert.MeanOfProducts Finset
open Idealize.ShloMosaic.Pipeline (Dat)

variable (m : (ℓ : Loc nD τ sig) → Buf (Elt Ideal) ℓ) (ρ : Dev nD → PrngReg)

/-- The array of partial sums of core `c`'s two flat arguments. -/
abbrev partialsOf (c : Dev nD) : S16x128.Idx → EReal :=
  partials (m ((c : Thread nD τ).loc main_arg0)) (m ((c : Thread nD τ).loc main_arg1))

/-- What a writing-back point writes is its row block of `partials`. -/
theorem flushed_eq (c : Dev nD) (t : Fin cfg0.N) (hf : (cfg0.win 2).flush t = true) :
    (dats m 0 c).flushed 2 t = ((cfg0.win 2).blk t).view.read (Elt Ideal) (partialsOf m c) := by
  have hN : t.val < 32 := lt_of_lt_of_eq t.isLt (show cfg0.N = 32 from N_0)
  have h15 : t.val % 16 = 15 := (flush0_2 t).mp hf
  obtain ⟨-, -, -, -, e0, e1⟩ := blockIndices t
  show (cfg0.win 2).cut (grid0.coords t) ((dats m 0 c).after 2 t) = _
  rw [after0_2]
  funext j
  rw [View.read_apply]
  show outsAt0 m c t.val t.isLt j = partials _ _ (((cfg0.win 2).blk t).view.emb j)
  have hj0 : (j 0).val < 8 := (j 0).isLt
  have c0 : ((((cfg0.win 2).blk t).view.emb j) 0).val = t.val / 16 * 8 + (j 0).val := by
    show win0_2.index t (0 : Fin 2) * 8 + 1 * (j 0).val = _; omega
  have c1 : ((((cfg0.win 2).blk t).view.emb j) 1).val = (j 1).val := by
    show win0_2.index t (1 : Fin 2) * 128 + 1 * (j 1).val = _; omega
  rw [tile_after, h15]
  unfold partials
  rw [c0, c1]
  refine Finset.sum_congr rfl fun s _ => ?_
  unfold addend
  rw [show (t.val / 16 * 8 + (j 0).val) / 8 = t.val / 16 by omega, show (t.val / 16 * 8 + (j 0).val) % 8 = (j 0).val by omega]

/-- An entry of the array is in point `t`'s block iff each coordinate is in the block's range. -/
theorem mem_tile (t : Fin cfg0.N) (i : S16x128.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- Row `r` of the array is written back by the last point of run `r / 8`. -/
theorem covered (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  let t : Fin cfg0.N := ⟨16 * ((i 0).val / 8) + 15, by rw [show cfg0.N = 32 from N_0]; omega⟩
  have ht : t.val = 16 * ((i 0).val / 8) + 15 := rfl
  obtain ⟨-, -, -, -, e0, e1⟩ := blockIndices t
  refine ⟨t, (flush0_2 t).mpr (by rw [ht]; omega), ?_⟩
  rw [mem_tile]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- After the region the array is `partials` of the two flat arguments. -/
theorem array_eq (c : Dev nD) : (dats m 0 c).arrAt 2 cfg0.N = partialsOf m c :=
  (dats m 0 c).arrAt_eq_of_cover 2 (partialsOf m c) (flushed_eq m c) (covered)

/-- The sum of all the products of two flat arrays. -/
def productsTotal (x y : Flat.Idx → EReal) : EReal := ∑ i : Flat.Idx, x i * y i

/-- The scalar the kernel's program ends with: the sum of all the products times the word `0x33000000`. -/
def scalarOf (c : Dev nD) : S_.Idx → EReal := fun _ =>
  productsTotal (m ((c : Thread nD τ).loc main_arg0)) (m ((c : Thread nD τ).loc main_arg1)) * Ideal.ofBits .f32 0x33000000#32

/-- The host lines after the region leave it in the result buffer. -/
theorem tail_eq (c : Dev nD) :
    Pipeline.afterTail₀ cfgs (dats m) 0 (V0 m) [hostOps1] c main_v4 = scalarOf m c := by
  unfold Pipeline.afterTail₀
  show StableHlo.after hostOps1 _ (Proc.devRef .tc main_v4) = _
  after_results
  have harr : Pipeline.withArrays (cfgs 0).spec c (V0 m c) (fun w => (dats m 0 c).arrAt w (cfgs 0).N) (Proc.devRef .tc main_v2)
      = partialsOf m c :=
    (Pipeline.withArrays_arr spec0 launch0.win.arr_inj c _ _ 2).trans (array_eq m c)
  rw [harr]
  funext i
  have hsum : Host.reduceAdd (F := Ideal) (partialsOf m c) (constant S_ .f32 0x00000000#32) reducesTo_S16x128_S_d0_1 h_S_ i
      = Ideal.ofBits .f32 0x00000000#32 + ∑ j : S16x128.Idx, partialsOf m c j := by
    simp only [Host.reduceAdd, Ideal.hostReduceAdd_def]
    exact Ideal.hostReduceAdd_total reducesTo_S16x128_S_d0_1 (fun b => b.elim0) _ _ i
  show Host.reduceAdd (F := Ideal) (partialsOf m c) (constant S_ .f32 0x00000000#32) reducesTo_S16x128_S_d0_1 h_S_ i
      * Ideal.ofBits .f32 0x33000000#32 = _
  rw [hsum, Ideal.ofBits_zero_f32, zero_add, sum_partials]
  rfl

/-- The run of the kernel's program, read: its result buffer ends at the scalar, its two arguments as launched. -/
theorem run : θ_run defs (onTc (τ := τ) (main (F := Ideal))) ⟨m, fun _ => 0, ρ⟩ fun r => ∀ c : Dev nD,
      r.2.mem ((c.tc : Thread nD τ).loc main_v4) = scalarOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.lean ====
/-
  The kernel and its reference compute the same extended real: the mean of the products `x i * y i` of two flat arrays of
  33554432 = 2²⁵ numbers.

  The reference multiplies the arrays entry by entry, sums all the products from zero and divides by 2²⁵.

  The kernel regards each array as a 262144 × 128 matrix and walks it in 32 row blocks of 8192 rows, in two runs of sixteen.
  At every block it multiplies the two blocks entry by entry and folds the 8192 rows of the product onto 8 (row `8 q + a` onto
  row `a`), adding the 1024 resulting 8 × 128 tiles; the first block of a run starts the run's 8 × 128 accumulator from zero and
  each later block adds into it; after the sixteenth block the accumulator is written to its half of a 16 × 128 array. The host
  then sums that array from zero and multiplies by 2⁻²⁵.

  Every product is thereby added exactly once: flat position `p` has the mixed-radix digits (run, block in the run, row group,
  row in the group, lane), and the kernel's sums run over the same digits in another order (Regroup.lean). Addition on the
  extended reals is commutative and associative, so the two totals are equal whatever the entries are — the precondition is
  not used for the value. The two scale factors are exact: the word `0x33000000` is `2⁻²⁵`, the word `0x4C000000` is `2²⁵`, and
  dividing an extended real by a non-zero real is multiplying it by the reciprocal (Spec.lean).

  The modules: Regroup (the re-ordering of the sum), Spec (the products, a block's folded sum, the partial sums and their total,
  the scale), RefValue (the reference's scalar), Payload (the body's arithmetic at an entry), Pieces (what each of the body's two
  cases leaves in the accumulator), Blocks (the blocks read back to the flat arrays), Accum (the accumulator after each grid
  point), Final (the 16 × 128 array after the region, the host's last two operations, the run). The three frame claims are the
  generated frames; the idealization rewrote nothing, so `preserves` is trivial.
-/
import proofs.«105900_j87522843559533_2_alg».proof.Defs
import proofs.«105900_j87522843559533_2_alg».proof.Proof.Gen.Kernel
import proofs.«105900_j87522843559533_2_alg».proof.Proof.Gen.Kernel.Skeleton
import proofs.«105900_j87522843559533_2_alg».proof.Proof.Gen.Kernel.Launch
import proofs.«105900_j87522843559533_2_alg».proof.Proof.Gen.Kernel.Points
import proofs.«105900_j87522843559533_2_alg».proof.Proof.Gen.Kernel.Frame
import proofs.«105900_j87522843559533_2_alg».proof.Proof.Gen.KernelIdeal
import proofs.«105900_j87522843559533_2_alg».proof.Proof.Gen.KernelIdeal.Skeleton
import proofs.«105900_j87522843559533_2_alg».proof.Proof.Gen.KernelIdeal.Launch
import proofs.«105900_j87522843559533_2_alg».proof.Proof.Gen.KernelIdeal.Points
import proofs.«105900_j87522843559533_2_alg».proof.Proof.Gen.KernelIdeal.Frame
import proofs.«105900_j87522843559533_2_alg».proof.Proof.Gen.ReferenceIdeal
import proofs.«105900_j87522843559533_2_alg».proof.Proof.Gen.ReferenceIdeal.Run
import proofs.«105900_j87522843559533_2_alg».proof.Proof.Gen.ReferenceIdeal.Read
import proofs.«105900_j87522843559533_2_alg».proof.Proof.Gen.Pre_finite_inputs
import proofs.«105900_j87522843559533_2_alg».proof.Proof.RefValue
import proofs.«105900_j87522843559533_2_alg».proof.Proof.Final
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is five host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's scalar is the sum of all the products times `2⁻²⁵` (Final.lean) and the reference's is
    that sum over `2²⁵` (RefValue.lean) of arrays that agree: one number (`scale_eq`). -/
theorem algebraic : Cert.algebraic_KernelIdeal_ReferenceIdeal := by
  intro m ρ m' ρ' _ hagree
  refine ⟨fun c => Cert.KernelIdeal.Hand.scalarOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq]
  funext i
  rw [Cert.ReferenceIdeal.RefValue.result_apply, (hagree c).1, (hagree c).2]
  exact (Cert.MeanOfProducts.scale_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
